-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S1 : Shape := ⟨1, ![1]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x3 : S_.BroadcastsInDim S32768x3 (![] : Fin 0 → Fin S32768x3.rank)
  reducesTo_S32768x3_S_d0_1 : S32768x3.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S128 : S_.BroadcastsInDim S128 (![] : Fin 0 → Fin S128.rank)
  reducesTo_S128_S_d0 : S128.ReducesTo [0] S_
  slices_S128_S1_1 : S128.Slices ![1] S1
  shapeCasts_S1_S_ : S1.ShapeCasts S_
  slices_S128_S1_0 : S128.Slices ![0] S1

variable [Facts]

def fn_part1 {F : FTy → Type} [FloatOps F] (main_arg4 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := (extractStridedSlice S1 ![1] · slices_S128_S1_1) main_arg4
  let main_v25 : FVec F S_ .f32 := shapeCast S_ main_v24 shapeCasts_S1_S_
  let main_v26 : FVec F S1 .f32 := (extractStridedSlice S1 ![0] · slices_S128_S1_0) main_arg4
  let main_v27 : FVec F S_ .f32 := shapeCast S_ main_v26 shapeCasts_S1_S_
  let main_v28 : IVec S_ 1 := cmpf .une main_v25 main_v27
  let main_v29 : IVec S_ 1 := andi main_v23 main_v28
  main_v29

def fn {F : FTy → Type} [FloatOps F] (main_arg0 : FVec F S32768x256 .f32) (main_arg1 : FVec F S32768x3 .f32) (main_arg2 : FVec F S128x256 .f32) (main_arg3 : FVec F S256x256 .f32) (main_arg4 : FVec F S128 .f32) (main_arg5 : IVec S262144 32) (main_arg6 : IVec S262144 32) (main_arg7 : IVec S32768 32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x3 .f32 := Host.absf main_arg1
  let main_cst_0 : FVec F S_ .f32 := constant S_ .f32 0x7F800000#32
  let main_v5 : FVec F S32768x3 .f32 := broadcastInDim S32768x3 ![] bcast_S_S32768x3 main_cst_0
  let main_v6 : IVec S32768x3 1 := cmpf .olt main_v4 main_v5
  let main_c_1 : IVec S_ 1 := constantI S_ 1 1#1
  let main_v7 : IVec S_ 1 := (fun x v => Host.reduce IntOp.andi x v reducesTo_S32768x3_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S262144x1 : Shape := ⟨2, ![262144, 1]⟩
abbrev S262144x3 : Shape := ⟨2, ![262144, 3]⟩
abbrev S1 : Shape := ⟨1, ![1]⟩
abbrev S1x128 : Shape := ⟨2, ![1, 128]⟩
abbrev S262144x256 : Shape := ⟨2, ![262144, 256]⟩
abbrev S4096x1 : Shape := ⟨2, ![4096, 1]⟩
abbrev S4096x256 : Shape := ⟨2, ![4096, 256]⟩
abbrev S4096x128 : Shape := ⟨2, ![4096, 128]⟩

abbrev nBuf : Space → Nat
  | .hbm => 63
  | .vmem => 7
  | .smem => 0
  | _ => 0

abbrev bufTy : (tb : Table) → Fin (tcTables nBuf tb) → BufTy
  | .hbm, ⟨0, _⟩ => ⟨S32768x256, .f32⟩
  | .hbm, ⟨1, _⟩ => ⟨S32768x3, .f32⟩
  | .hbm, ⟨2, _⟩ => ⟨S128x256, .f32⟩
  | .hbm, ⟨3, _⟩ => ⟨S256x256, .f32⟩
  | .hbm, ⟨4, _⟩ => ⟨S128, .f32⟩
  | .hbm, ⟨5, _⟩ => ⟨S262144, .i32⟩
  | .hbm, ⟨6, _⟩ => ⟨S262144, .i32⟩
  | .hbm, ⟨7, _⟩ => ⟨S32768, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x3, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x3, .f32⟩
  | .hbm, ⟨26, _⟩ => ⟨S262144x3, .f32⟩
  | .hbm, ⟨27, _⟩ => ⟨S262144x3, .f32⟩
  | .hbm, ⟨28, _⟩ => ⟨S_, .f32⟩
  | .hbm, ⟨29, _⟩ => ⟨S262144, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S262144x1, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S128x256, .bf16⟩
  | .hbm, ⟨46, _⟩ => ⟨S256x256, .bf16⟩
  | .hbm, ⟨47, _⟩ => ⟨S262144x256, .bf16⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x256, .f32⟩
  | .hbm, ⟨57, _⟩ => ⟨S262144x256, .f32⟩
  | .hbm, ⟨58, _⟩ => ⟨S262144x256, .f32⟩
  | .hbm, ⟨59, _⟩ => ⟨S_, .f32⟩
  | .hbm, ⟨60, _⟩ => ⟨S32768x256, .f32⟩
  | .hbm, ⟨61, _⟩ => ⟨S262144x1, .i32⟩
  | .hbm, ⟨62, _⟩ => ⟨S32768x256, .f32⟩
  | .local _ .vmem, ⟨0, _⟩ => ⟨S4096x1, .f32⟩
  | .local _ .vmem, ⟨1, _⟩ => ⟨S4096x1, .f32⟩
  | .local _ .vmem, ⟨2, _⟩ => ⟨S1x128, .f32⟩
  | .local _ .vmem, ⟨3, _⟩ => ⟨S128x256, .bf16⟩
  | .local _ .vmem, ⟨4, _⟩ => ⟨S256x256, .bf16⟩
  | .local _ .vmem, ⟨5, _⟩ => ⟨S4096x256, .bf16⟩
  | .local _ .vmem, ⟨6, _⟩ => ⟨S4096x256, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  h_S_ : 0 < S_.numel
  slices_S128_S1_1 : S128.Slices ![1] S1
  shapeCasts_S1_S_ : S1.ShapeCasts S_
  slices_S128_S1_0 : S128.Slices ![0] S1
  shapeCasts_S262144_S262144x1 : S262144.ShapeCasts S262144x1
  bcast_S_S128 : S_.BroadcastsInDim S128 (![] : Fin 0 → Fin S128.rank)
  shapeCasts_S128_S1x128 : S128.ShapeCasts S1x128
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4096x1_S4096x128 : S4096x1.Broadcasts S4096x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  bcast_S_S32768x256 : S_.BroadcastsInDim S32768x256 (![] : Fin 0 → Fin S32768x256.rank)
  gather_S32768x3_S262144x1_S262144x3_1_0_n_n_0_1_13_wf : GatherDims.WF S32768x3 S262144x1 S262144x3 [1] [0] [] [0] [] 1 ![1, 3]
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  gather_S32768x256_S262144x1_S262144x256_1_0_n_n_0_1_1256_wf : GatherDims.WF S32768x256 S262144x1 S262144x256 [1] [0] [] [0] [] 1 ![1, 256]
  scatter_S32768x256_S262144x1_S262144x256_1_0_0_1_wf : ScatterDims.WF S32768x256 S262144x1 S262144x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S262144x1.size a
  hwx0_0 : ∀ i : grid0.Coords, EltTy.bits .f32 = 32 ∨ (Rect.block (s := S262144x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S262144x256.size a
  hwx0_4 : ∀ i : grid0.Coords, EltTy.bits .bf16 = 32 ∨ (Rect.block (s := S262144x256) S4096x256.size (cc0_transform_4 i) (hinb0_4 i)).WholeWords (EltTy.packing .bf16)

variable [Facts₀]

def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf

abbrev win0_0 : Pipeline.Window sig grid0 :=
  Pipeline.Window.ofSpec (Memref.whole main_v27) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x3 : Shape := ⟨2, ![32768, 3]⟩
abbrev S128x256 : Shape := ⟨2, ![128, 256]⟩
abbrev S256x256 : Shape := ⟨2, ![256, 256]⟩
abbrev S128 : Shape := ⟨1, ![128]⟩
abbrev S262144 : Shape := ⟨1, ![262144]⟩
abbrev S32768 : Shape := ⟨1, ![32768]⟩
abbrev S_ : Shape := ⟨0, ![]⟩
abbrev S262144x1 : Shape := ⟨2, ![262144, 1]⟩
abbrev S262144x3 : Shape := ⟨2, ![262144, 3]⟩
abbrev S1 : Shape := ⟨1, ![1]⟩
abbrev S1x128 : Shape := ⟨2, ![1, 128]⟩
abbrev S262144x128 : Shape := ⟨2, ![262144, 128]⟩
abbrev S262144x256 : Shape := ⟨2, ![262144, 256]⟩

abbrev nBuf : Space → Nat
  | .hbm => 70
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x3, .f32⟩
  | .hbm, ⟨2, _⟩ => ⟨S128x256, .f32⟩
  | .hbm, ⟨3, _⟩ => ⟨S256x256, .f32⟩
  | .hbm, ⟨4, _⟩ => ⟨S128, .f32⟩
  | .hbm, ⟨5, _⟩ => ⟨S262144, .i32⟩
  | .hbm, ⟨6, _⟩ => ⟨S262144, .i32⟩
  | .hbm, ⟨7, _⟩ => ⟨S32768, .i32⟩
  | .hbm, ⟨8, _⟩ => ⟨S_, .i32⟩
  | .hbm, ⟨9, _⟩ => ⟨S262144, .i32⟩
  | .hbm, ⟨10, _⟩ => ⟨S262144, .i1⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S262144x1, .i32⟩
  | .hbm, ⟨16, _⟩ => ⟨S262144x3, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x3, .f32⟩
  | .hbm, ⟨26, _⟩ => ⟨S262144x3, .f32⟩
  | .hbm, ⟨27, _⟩ => ⟨S262144x3, .f32⟩
  | .hbm, ⟨28, _⟩ => ⟨S_, .f32⟩
  | .hbm, ⟨29, _⟩ => ⟨S262144, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S262144x1, .f32⟩
  | .hbm, ⟨40, _⟩ => ⟨S1x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S262144x128, .f32⟩
  | .hbm, ⟨47, _⟩ => ⟨S262144x128, .f32⟩
  | .hbm, ⟨48, _⟩ => ⟨S262144x256, .f32⟩
  | .hbm, ⟨49, _⟩ => ⟨S_, .f32⟩
  | .hbm, ⟨50, _⟩ => ⟨S262144x256, .f32⟩
  | .hbm, ⟨51, _⟩ => ⟨S262144x256, .f32⟩
  | .hbm, ⟨52, _⟩ => ⟨S262144x256, .f32⟩
  | .hbm, ⟨53, _⟩ => ⟨S_, .f32⟩
  | .hbm, ⟨54, _⟩ => ⟨S262144x256, .f32⟩
  | .hbm, ⟨55, _⟩ => ⟨S262144x256, .f32⟩
  | .hbm, ⟨56, _⟩ => ⟨S_, .i32⟩
  | .hbm, ⟨57, _⟩ => ⟨S262144, .i32⟩
  | .hbm, ⟨58, _⟩ => ⟨S262144, .i1⟩
  | .hbm, ⟨59, _⟩ => ⟨S_, .i32⟩
  | .hbm, ⟨60, _⟩ => ⟨S262144, .i32⟩
  | .hbm, ⟨61, _⟩ => ⟨S262144, .i32⟩
  | .hbm, ⟨62, _⟩ => ⟨S262144, .i32⟩
  | .hbm, ⟨63, _⟩ => ⟨S262144x1, .i32⟩
  | .hbm, ⟨64, _⟩ => ⟨S262144x256, .f32⟩
  | .hbm, ⟨65, _⟩ => ⟨S262144x256, .f32⟩
  | .hbm, ⟨66, _⟩ => ⟨S_, .f32⟩
  | .hbm, ⟨67, _⟩ => ⟨S32768x256, .f32⟩
  | .hbm, ⟨68, _⟩ => ⟨S262144x1, .i32⟩
  | .hbm, ⟨69, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_cst : Ref sig .tc := ⟨.hbm, 49, rfl⟩
abbrev main_call0_v0 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x3_S262144_d1 : S262144x3.ReducesTo [1] S262144
  h_S_ : 0 < S_.numel
  slices_S128_S1_1 : S128.Slices ![1] S1
  shapeCasts_S1_S_ : S1.ShapeCasts S_
  slices_S128_S1_0 : S128.Slices ![0] S1
  bcast_S128_S1x128_1 : S128.BroadcastsInDim S1x128 (![1] : Fin 1 → Fin S1x128.rank)
  bcast_S262144x1_S262144x128_0_1 : S262144x1.BroadcastsInDim S262144x128 (![0, 1] : Fin 2 → Fin S262144x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x256 : S_.BroadcastsInDim S262144x256 (![] : Fin 0 → Fin S262144x256.rank)
  bcast_S_S32768x256 : S_.BroadcastsInDim S32768x256 (![] : Fin 0 → Fin S32768x256.rank)
  gather_S32768x3_S262144x1_S262144x3_1_0_n_n_0_1_13_wf : GatherDims.WF S32768x3 S262144x1 S262144x3 [1] [0] [] [0] [] 1 ![1, 3]
  dot_S262144x128_S128x256_S262144x256_1_0_0_1_n_n_wf : DotDims.WF S262144x128 S128x256 S262144x256 [1] [0] [0] [1] [] []
  dot_S262144x256_S256x256_S262144x256_1_0_0_1_n_n_wf : DotDims.WF S262144x256 S256x256 S262144x256 [1] [0] [0] [1] [] []
  gather_S32768x256_S262144x1_S262144x256_1_0_n_n_0_1_1256_wf : GatherDims.WF S32768x256 S262144x1 S262144x256 [1] [0] [] [0] [] 1 ![1, 256]
  scatter_S32768x256_S262144x1_S262144x256_1_0_0_1_wf : ScatterDims.WF S32768x256 S262144x1 S262144x256 [1] [0] [0] 1

variable [Facts₀]

def gather_S32768x3_S262144x1_S262144x3_1_0_n_n_0_1_13 : GatherDims S32768x3 S262144x1 S262144x3 where
  offsetDims := [1]
  collapsedSliceDims := [0]
  operandBatchingDims := []
  startIndicesBatchingDims := []
  startIndexMap := [0]
  indexVectorDim := 1
  sliceSizes := ![1, 3]
  wf := gather_S32768x3_S262144x1_S262144x3_1_0_n_n_0_1_13_wf
def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def gather_S32768x256_S262144x1_S262144x256_1_0_n_n_0_1_1256 : GatherDims S32768x256 S262144x1 S262144x256 where
  offsetDims := [1]
  collapsedSliceDims := [0]
  operandBatchingDims := []
  startIndicesBatchingDims := []
  startIndexMap := [0]
  indexVectorDim := 1
  sliceSizes := ![1, 256]
  wf := gather_S32768x256_S262144x1_S262144x256_1_0_n_n_0_1_1256_wf
def scatter_S32768x256_S262144x1_S262144x256_1_0_0_1 : ScatterDims S32768x256 S262144x1 S262144x256 where
  updateWindowDims := [1]
  insertedWindowDims := [0]
  scatterDimsToOperandDims := [0]
  indexVectorDim := 1
  wf := scatter_S32768x256_S262144x1_S262144x256_1_0_0_1_wf

class Facts : Prop extends Facts₀ where

variable [Facts]
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibColumn.lean ====
/-
  A column of row totals, read entry by entry.

  A body that normalizes each row of an [a, b] matrix by the row's total forms the totals as a vector [a], views the
  vector as a column [a, 1], and repeats the column along each row. Three facts read that chain at an index written
  by coordinates, over any extents:

  * the sum of an [a, b] matrix along its rows (a reduction over axis 1) has at entry p the value  ∑ q < b, x (p, q);
  * a vector [a] viewed as a column [a, 1] reads, at (p, 0), the vector's entry p: both sit at row-major position p;
  * a column [a, 1] repeated across b columns reads, at (p, q), the column's entry of row p.

  The first holds on the extended reals with no finiteness: it only names the terms of the sum.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibColumn

open Idealize.ShloMosaic Idealize.ShloMosaic.ValueIdx

variable {α : Type}

/-- The index of an [a, b] matrix that lies over entry p of the row totals, at column q, is (p, q). -/
theorem lift_row {a b : ℕ} (h : (⟨2, ![a, b]⟩ : Shape).Reduces [1] ⟨1, ![a]⟩) (p : Fin a) (q : Fin b) :
    h.lift (ix1 p) q = ix2 p q :=
  funext fun c => Fin.ext (by
    match c with
    | ⟨0, _⟩ => rfl
    | ⟨1, _⟩ => rfl)

/-- A sum along the rows: entry p of the totals is the sum over the columns q of the matrix's entry (p, q). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  exact Finset.sum_congr rfl fun q _ => congrArg src (lift_row h p q)

/-- A vector viewed as a column reads, at (p, 0), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu]; omega)

/-- A column repeated across b columns reads, at (p, q), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) ?_
  intro ax
  match ax with
  | ⟨0, _⟩ =>
    show p.val = if a = 1 then 0 else p.val
    split_ifs with ha
    · have := p.isLt; omega
    · rfl
  | ⟨1, _⟩ =>
    show (0 : ℕ) = if (1 : ℕ) = 1 then 0 else q.val
    rw [if_pos rfl]

/-- The whole chain: the row totals of x, viewed as a column and repeated along each row, read at (p, q) the total
    of row p. -/
theorem rowTotals_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ src acc h hφ hacc) h₁) h₂ (ix2 p q)
      = ∑ q' : Fin b, src (ix2 p q') :=
  (broadcastTo_a1_ab_apply _ h₂ p q).trans
    ((shapeCast_a_a1_apply _ h₁ p (0 : Fin 1)).trans (rowSum_apply src acc h hφ hacc p))

end Cert.LibColumn

end
-- ==== Proof.Spec.lean ====
/-
  The continuous-filter network of one edge, as one function on the extended reals.

  An edge e carries 128 radial-basis values  rbf e b.  Its filter row is two dense layers with a rectifier after
  each:   h = max (∑ b, rbf e b · W1 (b, h), 0),   M (e, j) = max (∑ h, h · W2 (h, j), 0),
  the zero being the value of the all-zero float word.  Both programs compute this function of the radial-basis
  values; they differ only in how those values are formed, so the function is stated over an arbitrary table
  rbf.  It depends on the table only through the one row it reads.
-/
import Idealize.ShloMosaic.PureOps.Ideal
import Idealize.ShloMosaic.PureOps.Ideal.Laws
import Idealize.ShloMosaic.Lib.ValueIdx

noncomputable section

namespace Cert.CfConv

open Idealize.ShloMosaic

/-- Entry (e, j) of the filter: two dense layers over the row  rbf e ·, a rectifier after each. -/
def filter {E : ℕ} (rbf : Fin E → Fin 128 → EReal) (w1 : Fin 128 → Fin 256 → EReal) (w2 : Fin 256 → Fin 256 → EReal)
    (e : Fin E) (j : Fin 256) : EReal :=
  max (∑ h : Fin 256, max (∑ b : Fin 128, rbf e b * w1 b h) (Ideal.ofBits .f32 0x00000000#32) * w2 h j)
    (Ideal.ofBits .f32 0x00000000#32)

/-- The filter reads one row of the table: two tables that agree on the rows read give the same entry. -/
theorem filter_congr {E E' : ℕ} (rbf : Fin E → Fin 128 → EReal) (rbf' : Fin E' → Fin 128 → EReal)
    (w1 : Fin 128 → Fin 256 → EReal) (w2 : Fin 256 → Fin 256 → EReal) (e : Fin E) (e' : Fin E') (j : Fin 256)
    (h : ∀ b, rbf e b = rbf' e' b) : filter rbf w1 w2 e j = filter rbf' w1 w2 e' j := by
  unfold filter
  simp only [h]

end Cert.CfConv

end
-- ==== Proof.KernelEntry.lean ====
/-
  What the kernel body computes, entry by entry.

  The body holds a column d of 4096 scaled distances, a row c of 128 scaled centres and the two weight matrices.
  Entry (p, q) of what it stores is the filter of Spec.lean at row p over the radial-basis table
      rbf p b = exp (0 − (d (p, 0) − c (0, b)) · (d (p, 0) − c (0, b))) :
  the column is repeated along the rows and the row down the columns, the difference squared and negated by
  subtraction from the zero word, the two matrix products into a zero accumulator are sums over the contracted
  axis, and the changes of float format are the identity on the extended reals.
-/
import proofs.«159562_j9560597201471_2_alg».proof.Proof.Gen.KernelIdeal.Skeleton
import proofs.«159562_j9560597201471_2_alg».proof.Proof.LibPlainDot
import proofs.«159562_j9560597201471_2_alg».proof.Proof.LibColumn
import proofs.«159562_j9560597201471_2_alg».proof.Proof.Spec
import Idealize.ShloMosaic.Lib.ValueIdx
import Idealize.ShloMosaic.Lib.ValueLayout
import Idealize.ShloMosaic.Lib.Pipeline.Value

noncomputable section

namespace Cert.KernelIdeal.BodyValue

open Idealize.ShloMosaic Idealize.ShloMosaic.ValueIdx Cert.KernelIdeal Cert.KernelIdeal.Gen

local notation "dA" => dot_S4096x128_S128x256_S4096x256_1_0_0_1_n_n
local notation "dB" => dot_S4096x256_S256x256_S4096x256_1_0_0_1_n_n

/-- The first product carries the output's row to its left operand … -/
theorem dA_l0 (j : S4096x256.Idx) (q : (dA).contr.Idx) : ((dA).lhsIdx j q 0).val = (j 0).val := by
  unfold DotDims.lhsIdx
  rw [dif_neg (show ¬(0 : Fin S4096x128.rank) ∈ (dA).lhsBatch by decide),
    dif_pos (show (0 : Fin S4096x128.rank) ∈ (dA).lhsNonContracting by decide)]
  rfl
/-- … and the output's column to its right operand. -/
theorem dA_r1 (j : S4096x256.Idx) (q : (dA).contr.Idx) : ((dA).rhsIdx j q 1).val = (j 1).val := by
  unfold DotDims.rhsIdx
  rw [dif_neg (show ¬(1 : Fin S128x256.rank) ∈ (dA).rhsBatch by decide),
    dif_pos (show (1 : Fin S128x256.rank) ∈ (dA).rhsNonContracting by decide)]
  rfl
/-- The same for the second product. -/
theorem dB_l0 (j : S4096x256.Idx) (q : (dB).contr.Idx) : ((dB).lhsIdx j q 0).val = (j 0).val := by
  unfold DotDims.lhsIdx
  rw [dif_neg (show ¬(0 : Fin S4096x256.rank) ∈ (dB).lhsBatch by decide),
    dif_pos (show (0 : Fin S4096x256.rank) ∈ (dB).lhsNonContracting by decide)]
  rfl
theorem dB_r1 (j : S4096x256.Idx) (q : (dB).contr.Idx) : ((dB).rhsIdx j q 1).val = (j 1).val := by
  unfold DotDims.rhsIdx
  rw [dif_neg (show ¬(1 : Fin S256x256.rank) ∈ (dB).rhsBatch by decide),
    dif_pos (show (1 : Fin S256x256.rank) ∈ (dB).rhsNonContracting by decide)]
  rfl

/-- The radial-basis table of the body's column d and row c. -/
def rbfOf (d : Vec Ideal S4096x1 .f32) (c : Vec Ideal S1x128 .f32) (p : Fin 4096) (b : Fin 128) : EReal :=
  Ideal.exp (Ideal.ofBits .f32 0x00000000#32
    - (d (ix2 p (0 : Fin 1)) - c (ix2 (0 : Fin 1) b)) * (d (ix2 p (0 : Fin 1)) - c (ix2 (0 : Fin 1) b)))

/-- Entry (p, q) of the body's stored value is the filter over the table of its column and row. -/
theorem pay_entry (x0 : Vec Ideal S4096x1 .f32) (x1 : Vec Ideal S1x128 .f32) (x2 : Vec Ideal S128x256 .bf16)
    (x3 : Vec Ideal S256x256 .bf16) (p : Fin 4096) (q : Fin 256) :
    k0_pay1 x0 x1 x2 x3 (ix2 p q)
      = Cert.CfConv.filter (rbfOf x0 x1) (fun b h => x2 (ix2 b h)) (fun h j => x3 (ix2 h j)) p q := by
  unfold k0_pay1 Cert.CfConv.filter
  simp only [shapeCast_self]
  rw [truncf_apply, maximumf_apply, broadcast_apply]
  refine congrArg₂ max ((PlainDot.matmul_zero_ix2 (φ₁ := .bf16) (φ₂ := .bf16) dB rfl rfl rfl rfl dB_l0 dB_r1 none _ _ p q).trans
    (Finset.sum_congr rfl fun h _ => ?_)) rfl
  rw [truncf_apply, maximumf_apply, broadcast_apply]
  refine congrArg₂ (· * ·) (congrArg₂ max ((PlainDot.matmul_zero_ix2 (φ₁ := .bf16) (φ₂ := .bf16) dA rfl rfl rfl rfl dA_l0 dA_r1 none _ _ p h).trans
    (Finset.sum_congr rfl fun b _ => ?_)) rfl) rfl
  rw [truncf_apply]
  refine congrArg₂ (· * ·) ?_ rfl
  show Ideal.exp _ = _
  unfold rbfOf
  refine congrArg Ideal.exp ?_
  rw [subf_apply, mulf_apply, subf_apply, broadcast_apply, Cert.LibColumn.broadcastTo_a1_ab_apply,
    broadcastTo_1b_ab_apply]
  rfl

end Cert.KernelIdeal.BodyValue

end
-- ==== Proof.KernelArray.lean ====
/-
  From the blocks the grid points write back to the whole array the region leaves.

  Grid point t works on rows 4096·t … 4096·t + 4095 of the edge axis: it reads that band of the column of scaled
  distances, the whole row of scaled centres and the whole weight matrices, and writes back that band of the
  output.  Row p of its block is row 4096·t + p of the whole arrays, so what it writes back is the band of ONE
  whole-array function: at (e, j) the filter of Spec.lean at row e over the table
      exp (0 − (d (e, 0) − c (0, b))²)
  of the whole column d and the row c.  The 64 bands tile the array (row e lies in band e / 4096), so the array
  ends at that function.
-/
import proofs.«159562_j9560597201471_2_alg».proof.Proof.Gen.KernelIdeal.Frame
import proofs.«159562_j9560597201471_2_alg».proof.Proof.KernelEntry
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The radial-basis table of a whole column d of scaled distances and the row c of scaled centres. -/
def rbfW (d : S262144x1.Idx → EReal) (cc : S1x128.Idx → EReal) (e : Fin 262144) (b : Fin 128) : EReal :=
  Ideal.exp (Ideal.ofBits .f32 0x00000000#32
    - (d (ix2 e (0 : Fin 1)) - cc (ix2 (0 : Fin 1) b)) * (d (ix2 e (0 : Fin 1)) - cc (ix2 (0 : Fin 1) b)))

/-- The array the region leaves, as one function of the four arrays it reads. -/
def regionOut (d : S262144x1.Idx → EReal) (cc : S1x128.Idx → EReal) (w1 : S128x256.Idx → EReal)
    (w2 : S256x256.Idx → EReal) : S262144x256.Idx → EReal := fun i =>
  Cert.CfConv.filter (rbfW d cc) (fun b h => w1 (ix2 b h)) (fun h j => w2 (ix2 h j))
    ⟨(i 0).val, idx2_lt0 i⟩ ⟨(i 1).val, idx2_lt1 i⟩

theorem hz : (![0, 0] : Fin 2 → Nat) = fun _ => 0 := funext fun a => by fin_cases a <;> rfl

/-- The index maps over the grid: the distances' band moves with the output's band, the other inputs stay whole,
    and the output's band index stays below 64. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 63 :=
  (by decide +kernel : ∀ t : Fin grid0.N, _)

/-- Every band is some point's. -/
theorem idx_onto : ∀ q0 : Fin 64, ∃ t : Fin cfg0.N, win0_4.index t = ![q0.val, 0] :=
  (by decide +kernel : ∀ q0 : Fin 64, ∃ t : Fin grid0.N, win0_4.index t = ![q0.val, 0])

/-- Row p of point t's band of distances is the whole column's row under the output band's row p. -/
theorem read_d (c : Dev nD) (t : Fin cfg0.N) (p : Fin 4096) (I : S262144x256.Idx)
    (hI : (I 0).val = win0_4.index t (0 : Fin 2) * 4096 + 1 * p.val) :
    iblk m c 0 t (ix2 p (0 : Fin 1)) = V m c main_v27 (ix2 (⟨(I 0).val, idx2_lt0 I⟩ : Fin 262144) (0 : Fin 1)) := by
  obtain ⟨e0, e1, -⟩ := idx_facts t
  show V m c main_v27 (((cfg0.win 0).blk t).view.emb (ix2 p (0 : Fin 1))) = V m c main_v27 _
  refine congrArg _ (funext fun a => Fin.ext ?_)
  match a with
  | ⟨0, _⟩ => show win0_0.index t (0 : Fin 2) * 4096 + 1 * p.val = (I 0).val; omega
  | ⟨1, _⟩ => show win0_0.index t (1 : Fin 2) * 1 + 1 * 0 = 0; omega

/-- The centres' block is the whole row. -/
theorem read_c (c : Dev nD) (t : Fin cfg0.N) (b : Fin 128) :
    iblk m c 1 t (ix2 (0 : Fin 1) b) = V m c main_v30 (ix2 (0 : Fin 1) b) := by
  obtain ⟨-, -, e2, e3, -⟩ := idx_facts t
  show V m c main_v30 (((cfg0.win 1).blk t).view.emb (ix2 (0 : Fin 1) b)) = V m c main_v30 _
  refine congrArg _ (funext fun a => Fin.ext ?_)
  match a with
  | ⟨0, _⟩ => show win0_1.index t (0 : Fin 2) * 1 + 1 * 0 = 0; omega
  | ⟨1, _⟩ => show win0_1.index t (1 : Fin 2) * 128 + 1 * b.val = b.val; omega

/-- The first weights' block is the whole matrix. -/
theorem read_w1 (c : Dev nD) (t : Fin cfg0.N) (b : Fin 128) (h : Fin 256) :
    iblk m c 2 t (ix2 b h) = V m c main_v31 (ix2 b h) := by
  obtain ⟨-, -, -, -, e4, e5, -⟩ := idx_facts t
  show V m c main_v31 (((cfg0.win 2).blk t).view.emb (ix2 b h)) = V m c main_v31 _
  refine congrArg _ (funext fun a => Fin.ext ?_)
  match a with
  | ⟨0, _⟩ => show win0_2.index t (0 : Fin 2) * 128 + 1 * b.val = b.val; omega
  | ⟨1, _⟩ => show win0_2.index t (1 : Fin 2) * 256 + 1 * h.val = h.val; omega

/-- The second weights' block is the whole matrix. -/
theorem read_w2 (c : Dev nD) (t : Fin cfg0.N) (h : Fin 256) (j : Fin 256) :
    iblk m c 3 t (ix2 h j) = V m c main_v32 (ix2 h j) := by
  obtain ⟨-, -, -, -, -, -, e6, e7, -⟩ := idx_facts t
  show V m c main_v32 (((cfg0.win 3).blk t).view.emb (ix2 h j)) = V m c main_v32 _
  refine congrArg _ (funext fun a => Fin.ext ?_)
  match a with
  | ⟨0, _⟩ => show win0_3.index t (0 : Fin 2) * 256 + 1 * h.val = h.val; omega
  | ⟨1, _⟩ => show win0_3.index t (1 : Fin 2) * 256 + 1 * j.val = j.val; omega

/-- What point t writes back is its band of the whole-array function. -/
theorem flushed_eq (c : Dev nD) (t : Fin cfg0.N) :
    (dats m 0 c).flushed 4 t = ((cfg0.win 4).blk t).view.read (Elt Ideal)
      (regionOut (V m c main_v27) (V m c main_v30) (V m c main_v31) (V m c main_v32)) := by
  show (cfg0.win 4).cut (grid0.coords t) ((dats m 0 c).after 4 t) = _
  rw [after0_4]
  unfold out0_4
  rw [View.canon_unit_zero hz]
  simp only [View.ld_unit_zero (S := S4096x1) hz, View.ld_unit_zero (S := S1x128) hz,
    View.ld_unit_zero (S := S128x256) hz, View.ld_unit_zero (S := S256x256) hz]
  obtain ⟨-, -, -, -, -, -, -, -, e8, -⟩ := idx_facts t
  funext y
  obtain ⟨p, q, rfl⟩ : ∃ (p : Fin 4096) (q : Fin 256), y = ix2 p q := ⟨y 0, y 1, eq_ix2 y⟩
  refine (BodyValue.pay_entry _ _ _ _ p q).trans ?_
  rw [View.read_apply]
  unfold regionOut
  have h0 : ((((cfg0.win 4).blk t).view.emb (ix2 p q)) 0).val = win0_4.index t (0 : Fin 2) * 4096 + 1 * p.val := rfl
  have h1 : ((((cfg0.win 4).blk t).view.emb (ix2 p q)) 1).val = win0_4.index t (1 : Fin 2) * 256 + 1 * q.val := rfl
  have hq : q = ⟨((((cfg0.win 4).blk t).view.emb (ix2 p q)) 1).val, idx2_lt1 _⟩ := Fin.ext (by rw [h1]; omega)
  have hw1 : (fun b h => iblk m c 2 t (ix2 b h)) = fun b h => V m c main_v31 (ix2 b h) :=
    funext fun b => funext fun h => read_w1 m c t b h
  have hw2 : (fun h j => iblk m c 3 t (ix2 h j)) = fun h j => V m c main_v32 (ix2 h j) :=
    funext fun h => funext fun j => read_w2 m c t h j
  rw [hw1, hw2]
  refine (Cert.CfConv.filter_congr _ (rbfW (V m c main_v27) (V m c main_v30)) _ _ p
    ⟨((((cfg0.win 4).blk t).view.emb (ix2 p q)) 0).val, idx2_lt0 _⟩ q (fun b => ?_)).trans (congrArg _ hq)
  unfold BodyValue.rbfOf rbfW
  rw [read_d m c t p _ h0, read_c m c t b]

/-- An index of the array is in point t's band iff each coordinate is in the band's range on its axis. -/
theorem mem_blk (t : Fin cfg0.N) (i : S262144x256.Idx) :
    i ∈ ((cfg0.win 4).blk t).view.set ↔ ∀ a : Fin 2, win0_4.index t a * S4096x256.size a ≤ (i a).val
      ∧ (i a).val < win0_4.index t a * S4096x256.size a + S4096x256.size a := by
  show i ∈ ((View.whole main_v33).slice (win0_4.rect t)).set ↔ _
  rw [View.set_slice_whole, Rect.mem_set_unit]
  exact Iff.rfl

/-- The bands tile the array: row e lies in band e / 4096. -/
theorem cover (i : S262144x256.Idx) :
    ∃ t : Fin cfg0.N, (cfg0.win 4).flush t = true ∧ i ∈ ((cfg0.win 4).blk t).view.set := by
  have hi0 : (i 0).val < 262144 := idx2_lt0 i
  have hi1 : (i 1).val < 256 := idx2_lt1 i
  obtain ⟨t, ht⟩ := idx_onto ⟨(i 0).val / 4096, by omega⟩
  have q0 : win0_4.index t (0 : Fin 2) = (i 0).val / 4096 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 256 ≤ (i 1).val ∧ (i 1).val < win0_4.index t (1 : Fin 2) * 256 + 256; omega

/-- The array the region leaves. -/
theorem final (c : Dev nD) : (dats m 0 c).arrAt 4 cfg0.N
    = regionOut (V m c main_v27) (V m c main_v30) (V m c main_v31) (V m c main_v32) :=
  (dats m 0 c).arrAt_eq_of_cover 4 _ (fun t _ => flushed_eq m c t) cover

end Cert.KernelIdeal.RegionValue

end
-- ==== Proof.KernelPrelude.lean ====
/-
  The four arrays the region reads, as the host lines before it leave them.

  Before the region the host computes, per edge, the squared distance D between the two gathered positions, the
  width  γ = 1 / ((μ 1 − μ 0) · (μ 1 − μ 0))  and its root  s = √γ;  the region's column of distances is  D · s
  laid out as a column, its row of centres is  μ · s  laid out as a row, and its weight matrices are the two
  weight arguments rounded to a shorter format (the identity on the extended reals).  The squared distance is
  formed by the very operations the reference program performs, so it is the reference's own stage.
-/
import proofs.«159562_j9560597201471_2_alg».proof.Proof.Gen.KernelIdeal.Frame
import proofs.«159562_j9560597201471_2_alg».proof.Proof.Gen.ReferenceIdeal.Read
import proofs.«159562_j9560597201471_2_alg».proof.Proof.LibColumn
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Prelude

open Idealize.ShloMosaic Idealize.ShloMosaic.TcCoe Idealize.ShloMosaic.ValueIdx Idealize.SL.Sem
open Cert.KernelIdeal Cert.KernelIdeal.Gen

/-- The root of the width, as a scalar array: √(1 / ((μ 1 − μ 0) · (μ 1 − μ 0))). -/
def rootK (mu : FVec Ideal S128 .f32) : FVec Ideal S_ .f32 :=
  Host.sqrt (Host.divf (constant S_ .f32 0x3F800000#32)
    (mulf
      (subf (shapeCast S_ (extractStridedSlice S1 ![1] mu Facts₀.slices_S128_S1_1) Facts₀.shapeCasts_S1_S_)
        (shapeCast S_ (extractStridedSlice S1 ![0] mu Facts₀.slices_S128_S1_0) Facts₀.shapeCasts_S1_S_))
      (subf (shapeCast S_ (extractStridedSlice S1 ![1] mu Facts₀.slices_S128_S1_1) Facts₀.shapeCasts_S1_S_)
        (shapeCast S_ (extractStridedSlice S1 ![0] mu Facts₀.slices_S128_S1_0) Facts₀.shapeCasts_S1_S_))))

/-- An edge's endpoint index, a negative one counted from the end. -/
def wrapK (ix : IVec S262144 32) : IVec S262144x1 32 :=
  broadcastInDim S262144x1 ![0] Facts₀.bcast_S262144_S262144x1_0
    (select (cmpi .slt ix (broadcastInDim S262144 ![] Facts₀.bcast_S_S262144 (constantI S_ 32 0#32)))
      (addi ix (broadcastInDim S262144 ![] Facts₀.bcast_S_S262144 (constantI S_ 32 32768#32))) ix)

/-- The per-edge squared distance between the gathered positions. -/
def distK (R : FVec Ideal S32768x3 .f32) (src dest : IVec S262144 32) : FVec Ideal S262144 .f32 :=
  Host.reduceAdd
    (mulf
      (subf (Host.gather gather_S32768x3_S262144x1_S262144x3_1_0_n_n_0_1_13 R (wrapK src))
        (Host.gather gather_S32768x3_S262144x1_S262144x3_1_0_n_n_0_1_13 R (wrapK dest)))
      (subf (Host.gather gather_S32768x3_S262144x1_S262144x3_1_0_n_n_0_1_13 R (wrapK src))
        (Host.gather gather_S32768x3_S262144x1_S262144x3_1_0_n_n_0_1_13 R (wrapK dest))))
    (constant S_ .f32 0x00000000#32) Facts₀.reducesTo_S262144x3_S262144_d1 Facts₀.h_S_

variable (m : (ℓ : Loc nD τ sig) → Buf (Elt Ideal) ℓ)

set_option maxHeartbeats 4000000 in
/-- The column of scaled distances, from the positions R, the centres μ and the edges' endpoints. -/
theorem v27_eq (c : Dev nD) (R : FVec Ideal S32768x3 .f32) (mu : FVec Ideal S128 .f32) (src dest : IVec S262144 32)
    (hR : m ((c : Thread nD τ).loc main_arg1) = R) (hmu : m ((c : Thread nD τ).loc main_arg4) = mu)
    (hsrc : m ((c : Thread nD τ).loc main_arg5) = src) (hdest : m ((c : Thread nD τ).loc main_arg6) = dest) :
    @Eq (FVec Ideal S262144x1 .f32) (V m c main_v27)
      (shapeCast S262144x1 (mulf (distK R src dest) (broadcastInDim S262144 ![] Facts₀.bcast_S_S262144 (rootK mu)))
        Facts₀.shapeCasts_S262144_S262144x1) := by
  subst hR hmu hsrc hdest
  show StableHlo.after hostOps0 (fun b => m (c, b)) (Proc.devRef .tc main_v27) = _
  after_results_simp
  rfl

set_option maxHeartbeats 4000000 in
/-- The row of scaled centres. -/
theorem v30_eq (c : Dev nD) (mu : FVec Ideal S128 .f32) (hmu : m ((c : Thread nD τ).loc main_arg4) = mu) :
    @Eq (FVec Ideal S1x128 .f32) (V m c main_v30)
      (shapeCast S1x128 (mulf mu (broadcastInDim S128 ![] Facts₀.bcast_S_S128 (rootK mu)))
        Facts₀.shapeCasts_S128_S1x128) := by
  subst hmu
  show StableHlo.after hostOps0 (fun b => m (c, b)) (Proc.devRef .tc main_v30) = _
  after_results_simp
  rfl

set_option maxHeartbeats 4000000 in
/-- The first weight matrix, rounded. -/
theorem v31_eq (c : Dev nD) (W1 : FVec Ideal S128x256 .f32) (hW1 : m ((c : Thread nD τ).loc main_arg2) = W1) :
    @Eq (FVec Ideal S128x256 .bf16) (V m c main_v31) (truncf .bf16 W1 Facts₀.bitsLt_bf16_f32) := by
  subst hW1
  show StableHlo.after hostOps0 (fun b => m (c, b)) (Proc.devRef .tc main_v31) = _
  after_results_simp

set_option maxHeartbeats 4000000 in
/-- The second weight matrix, rounded. -/
theorem v32_eq (c : Dev nD) (W2 : FVec Ideal S256x256 .f32) (hW2 : m ((c : Thread nD τ).loc main_arg3) = W2) :
    @Eq (FVec Ideal S256x256 .bf16) (V m c main_v32) (truncf .bf16 W2 Facts₀.bitsLt_bf16_f32) := by
  subst hW2
  show StableHlo.after hostOps0 (fun b => m (c, b)) (Proc.devRef .tc main_v32) = _
  after_results_simp

/-- The squared distance is the reference's own stage: the same operations on the same arguments. -/
theorem distK_eq (R : FVec Ideal S32768x3 .f32) (src dest : IVec S262144 32) :
    distK R src dest = Cert.ReferenceIdeal.Read.val_main_v16 (F := Ideal) R src dest := by
  unfold distK wrapK Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0 Cert.ReferenceIdeal.Read.val_main_c_1
    Cert.ReferenceIdeal.Read.val_main_c_2 Cert.ReferenceIdeal.Read.val_main_cst
  rfl

end Cert.KernelIdeal.Prelude

end
-- ==== Proof.RefEntry.lean ====
/-
  What the reference computes before its scatter, entry by entry.

  The reference forms the radial-basis table  exp ((−γ) · (D e − μ b) · (D e − μ b))  from the per-edge squared
  distance D, the centres μ and the negated width −γ, multiplies it by the first weight matrix, rectifies,
  multiplies by the second weight matrix and rectifies.  Entry (e, j) of the result is the filter of Spec.lean
  at row e over that table.  Each product is a sum over the contracted axis; a broadcast reads its operand at the
  coordinates it keeps.
-/
import proofs.«159562_j9560597201471_2_alg».proof.Proof.Gen.ReferenceIdeal.Read
import proofs.«159562_j9560597201471_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read

/-- The reference's radial-basis table from the squared distances D, the centres μ and the negated width ng. -/
def rbfR (D : S262144.Idx → EReal) (mu : S128.Idx → EReal) (ng : EReal) (e : Fin 262144) (b : Fin 128) : EReal :=
  Ideal.exp (ng * ((D (ix1 e) - mu (ix1 b)) * (D (ix1 e) - mu (ix1 b))))

theorem l36 (e : Fin 262144) (j h : Fin 256) : lidx_main_v36 (ix2 e j) h = ix2 e h :=
  funext fun a => Fin.ext (by match a with | ⟨0, _⟩ => rfl | ⟨1, _⟩ => rfl)
theorem r36 (e : Fin 262144) (j h : Fin 256) : ridx_main_v36 (ix2 e j) h = ix2 h j :=
  funext fun a => Fin.ext (by match a with | ⟨0, _⟩ => rfl | ⟨1, _⟩ => rfl)
theorem l34 (e : Fin 262144) (h : Fin 256) (b : Fin 128) : lidx_main_v34 (ix2 e h) b = ix2 e b :=
  funext fun a => Fin.ext (by match a with | ⟨0, _⟩ => rfl | ⟨1, _⟩ => rfl)
theorem r34 (e : Fin 262144) (h : Fin 256) (b : Fin 128) : ridx_main_v34 (ix2 e h) b = ix2 b h :=
  funext fun a => Fin.ext (by match a with | ⟨0, _⟩ => rfl | ⟨1, _⟩ => rfl)
theorem i25 (e : Fin 262144) (b : Fin 128) : idx_main_v25 (idx_main_v27 (ix2 e b)) = ix1 e :=
  funext fun a => Fin.ext (by match a with | ⟨0, _⟩ => rfl)
theorem i26 (e : Fin 262144) (b : Fin 128) : idx_main_v26 (idx_main_v28 (ix2 e b)) = ix1 b :=
  funext fun a => Fin.ext (by match a with | ⟨0, _⟩ => rfl)

/-- Entry (e, b) of the reference's radial-basis stage. -/
theorem v33_entry (x1 : (⟨S32768x3, .f32⟩ : BufTy).Contents (Elt Ideal)) (x4 : (⟨S128, .f32⟩ : BufTy).Contents (Elt Ideal))
    (x5 x6 : (⟨S262144, .i32⟩ : BufTy).Contents (Elt Ideal)) (e : Fin 262144) (b : Fin 128) :
    val_main_v33 (F := Ideal) x1 x4 x5 x6 (ix2 e b)
      = rbfR (val_main_v16 (F := Ideal) x1 x5 x6) x4 (val_main_v24 (F := Ideal) x4 ix0) e b := by
  rw [val_main_v33_apply, val_main_v32_apply, val_main_v31_apply, val_main_v30_apply, val_main_v29_apply,
    val_main_v27_apply, val_main_v25_apply, val_main_v28_apply, val_main_v26_apply, i25, i26]
  rfl

/-- Entry (e, j) of the reference's filter stage. -/
theorem v37_entry (x1 : (⟨S32768x3, .f32⟩ : BufTy).Contents (Elt Ideal)) (x2 : (⟨S128x256, .f32⟩ : BufTy).Contents (Elt Ideal))
    (x3 : (⟨S256x256, .f32⟩ : BufTy).Contents (Elt Ideal)) (x4 : (⟨S128, .f32⟩ : BufTy).Contents (Elt Ideal))
    (x5 x6 : (⟨S262144, .i32⟩ : BufTy).Contents (Elt Ideal)) (e : Fin 262144) (j : Fin 256) :
    val_main_v37 (F := Ideal) x1 x2 x3 x4 x5 x6 (ix2 e j)
      = Cert.CfConv.filter (rbfR (val_main_v16 (F := Ideal) x1 x5 x6) x4 (val_main_v24 (F := Ideal) x4 ix0))
          (fun b h => x2 (ix2 b h)) (fun h j => x3 (ix2 h j)) e j := by
  unfold Cert.CfConv.filter
  rw [val_main_v37_apply, val_main_v36_apply, val_main_call1_v0_apply, val_main_call1_cst_apply]
  refine congrArg₂ max (Finset.sum_congr rfl fun h _ => ?_) rfl
  rw [l36, r36, val_main_v35_apply, val_main_v34_apply, val_main_call0_v0_apply, val_main_call0_cst_apply]
  refine congrArg₂ (· * ·) (congrArg₂ max (Finset.sum_congr rfl fun b _ => ?_) rfl) rfl
  rw [l34, r34, v33_entry]

end Cert.ReferenceIdeal.RefValue

end
-- ==== Proof.LibRbfScale.lean ====
/-
  Scaling a Gaussian radial basis by the square root of its width, on the extended reals.

  A radial basis function  exp (−γ · (D − μ)²)  may be computed with the width folded into both arguments first:
  with  s = √γ  it is  exp (0 − (D·s − μ·s)²).  For a real γ > 0 and a real centre μ the two exponents agree for
  EVERY extended real D: on a real D because  s·s = γ  and the reals form a commutative ring; at D = +∞ and at
  D = −∞ because both exponents are −∞ (a positive real multiple of an infinity is that infinity, an infinity
  minus a real is that infinity, and the square of an infinity is +∞).  So the distance D needs no finiteness.

  The width here is  γ = 1 / (μ₁ − μ₀)²  for two real centres  μ₁ ≠ μ₀ :  a positive real, with a real square root.
-/
import Idealize.ShloMosaic.PureOps.Ideal
import Idealize.ShloMosaic.PureOps.Ideal.Laws

noncomputable section

namespace Cert.LibRbfScale

open Idealize.ShloMosaic

/-- The reciprocal of the square of a nonzero real spacing, as the extended reals compute it, is the real
    reciprocal. -/
theorem div_one_sq (δ : ℝ) (hδ : δ ≠ 0) :
    Ideal.div 1 ((δ : EReal) * (δ : EReal)) = ((1 / (δ * δ) : ℝ) : EReal) := by
  have h2 : δ * δ ≠ 0 := mul_ne_zero hδ hδ
  rw [← EReal.coe_mul, Ideal.div_coe h2, one_mul]

/-- The square root of a nonnegative real, as the extended reals compute it, is the real square root. -/
theorem sqrt_coe_nonneg (g : ℝ) (hg : 0 ≤ g) : Ideal.sqrt (g : EReal) = ((Real.sqrt g : ℝ) : EReal) := by
  show (if g < 0 then (⊥ : EReal) else ((Real.sqrt g : ℝ) : EReal)) = _
  rw [if_neg (not_lt.mpr hg)]

/-- The two exponents agree for a positive real width  g  with root  s = √g, a real centre  μ  and any
    extended real distance D. -/
theorem exponent_eq (g μ : ℝ) (hg : 0 < g) (D : EReal) :
    (0 : EReal) - (D * ((Real.sqrt g : ℝ) : EReal) - (μ : EReal) * ((Real.sqrt g : ℝ) : EReal))
        * (D * ((Real.sqrt g : ℝ) : EReal) - (μ : EReal) * ((Real.sqrt g : ℝ) : EReal))
      = (-(g : EReal)) * ((D - (μ : EReal)) * (D - (μ : EReal))) := by
  have hs : 0 < Real.sqrt g := Real.sqrt_pos.mpr hg
  have hss : Real.sqrt g * Real.sqrt g = g := Real.mul_self_sqrt hg.le
  induction D using EReal.rec with
  | bot =>
    rw [EReal.bot_mul_coe_of_pos hs, ← EReal.coe_mul, EReal.bot_sub, EReal.bot_sub, EReal.bot_mul_bot,
      zero_sub, EReal.neg_top, ← EReal.coe_neg, EReal.coe_mul_top_of_neg (neg_neg_of_pos hg)]
  | top =>
    rw [EReal.top_mul_coe_of_pos hs, ← EReal.coe_mul, EReal.top_sub_coe, EReal.top_sub_coe, EReal.top_mul_top,
      zero_sub, EReal.neg_top, ← EReal.coe_neg, EReal.coe_mul_top_of_neg (neg_neg_of_pos hg)]
  | coe d =>
    rw [← EReal.coe_mul, ← EReal.coe_mul, ← EReal.coe_sub, ← EReal.coe_mul, ← EReal.coe_zero, ← EReal.coe_sub,
      ← EReal.coe_sub, ← EReal.coe_mul, ← EReal.coe_neg, ← EReal.coe_mul]
    refine congrArg _ ?_
    have : (d * Real.sqrt g - μ * Real.sqrt g) * (d * Real.sqrt g - μ * Real.sqrt g)
        = (Real.sqrt g * Real.sqrt g) * ((d - μ) * (d - μ)) := by ring
    rw [this, hss]; ring

/-- The whole statement over two real centres  μ₁ ≠ μ₀ : with  γ = 1 / (μ₁ − μ₀)²  and  s = √γ  as the extended
    reals compute them, the exponent with the width folded into the arguments is the exponent  −γ · (D − μ)². -/
theorem scaled_exponent_eq (μ0 μ1 μ : ℝ) (h : μ1 ≠ μ0) (D : EReal) :
    (0 : EReal)
        - (D * Ideal.sqrt (Ideal.div 1 (((μ1 : EReal) - (μ0 : EReal)) * ((μ1 : EReal) - (μ0 : EReal))))
            - (μ : EReal) * Ideal.sqrt (Ideal.div 1 (((μ1 : EReal) - (μ0 : EReal)) * ((μ1 : EReal) - (μ0 : EReal)))))
          * (D * Ideal.sqrt (Ideal.div 1 (((μ1 : EReal) - (μ0 : EReal)) * ((μ1 : EReal) - (μ0 : EReal))))
            - (μ : EReal) * Ideal.sqrt (Ideal.div 1 (((μ1 : EReal) - (μ0 : EReal)) * ((μ1 : EReal) - (μ0 : EReal)))))
      = (-(Ideal.div 1 (((μ1 : EReal) - (μ0 : EReal)) * ((μ1 : EReal) - (μ0 : EReal)))))
          * ((D - (μ : EReal)) * (D - (μ : EReal))) := by
  have hδ : μ1 - μ0 ≠ 0 := sub_ne_zero.mpr h
  have hg : 0 < 1 / ((μ1 - μ0) * (μ1 - μ0)) := one_div_pos.mpr (mul_self_pos.mpr hδ)
  rw [← EReal.coe_sub, div_one_sq _ hδ, sqrt_coe_nonneg _ hg.le]
  exact exponent_eq _ μ hg D

end Cert.LibRbfScale

end
-- ==== Proof.PreFacts.lean ====
/-
  What the precondition says of the centres.

  The precondition is a conjunction, each conjunct one bit: every entry of each float argument is below +∞ in
  absolute value, and the centres' first two entries differ.  Two facts are read off it: every centre μ b is a
  real number (its absolute value, the greater of μ b and −μ b, is below +∞, so μ b is neither infinity), and
  μ 1 ≠ μ 0, so the spacing μ 1 − μ 0 the width is formed from is a nonzero real.
-/
import proofs.«159562_j9560597201471_2_alg».proof.Pre_finite_inputs
import proofs.«159562_j9560597201471_2_alg».proof.Proof.Gen.Pre_finite_inputs
import Idealize.ShloMosaic.Lib.ReduceAll
import Idealize.ShloMosaic.Lib.Affine
import Idealize.ShloMosaic.PureOps.Ideal.Laws
import Idealize.ShloMosaic.Lib.ValueIdx
import Idealize.ShloMosaic.Lib.Pipeline.Value

noncomputable section

namespace Cert.PreFacts

open Idealize.ShloMosaic Idealize.ShloMosaic.ValueIdx Cert.Pre_finite_inputs Cert.Pre_finite_inputs.Gen

instance : Subsingleton S_.Idx := ⟨fun a b => funext fun d => d.elim0⟩

/-- The word of +∞. -/
theorem ofBits_inf : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- A comparison bit that is set states the comparison. -/
theorem lt_of_cmp_olt (x y : EReal) (h : Ideal.cmp .olt x y = 1#1) : x < y := by
  unfold Ideal.cmp at h
  by_contra hn
  simp [hn] at h
theorem ne_of_cmp_une (x y : EReal) (h : Ideal.cmp .une x y = 1#1) : x ≠ y := by
  unfold Ideal.cmp at h
  intro he
  simp [he] at h

/-- Entry 1 of the centres, as the precondition's slice and reshape read it. -/
theorem slice1 (mu : FVec Ideal S128 .f32) (h1 : S128.Slices ![1] S1) (h2 : S1.ShapeCasts S_) :
    shapeCast S_ (extractStridedSlice S1 ![1] mu h1) h2 ix0 = mu (ix1 (1 : Fin 128)) := by
  rw [shapeCast_apply _ h2 ix0 (ix1 (0 : Fin 1)) rfl]
  exact extractStridedSlice_apply ![1] mu h1 _ _ (fun a => match a with | ⟨0, _⟩ => rfl)

/-- Entry 0 likewise. -/
theorem slice0 (mu : FVec Ideal S128 .f32) (h1 : S128.Slices ![0] S1) (h2 : S1.ShapeCasts S_) :
    shapeCast S_ (extractStridedSlice S1 ![0] mu h1) h2 ix0 = mu (ix1 (0 : Fin 128)) := by
  rw [shapeCast_apply _ h2 ix0 (ix1 (0 : Fin 1)) rfl]
  exact extractStridedSlice_apply ![0] mu h1 _ _ (fun a => match a with | ⟨0, _⟩ => rfl)

/-- The two facts about the centres. -/
theorem centres (a0 : FVec Ideal S32768x256 .f32) (a1 : FVec Ideal S32768x3 .f32) (a2 : FVec Ideal S128x256 .f32)
    (a3 : FVec Ideal S256x256 .f32) (mu : FVec Ideal S128 .f32) (a5 a6 : IVec S262144 32) (a7 : IVec S32768 32)
    (h : fn (F := Ideal) a0 a1 a2 a3 mu a5 a6 a7 = fun _ => 1#1) :
    (∀ i : S128.Idx, ∃ r : ℝ, mu i = (r : EReal)) ∧ mu (ix1 (1 : Fin 128)) ≠ mu (ix1 (0 : Fin 128)) := by
  have h0 := congrFun h ix0
  dsimp only [fn, fn_part1] at h0
  obtain ⟨h23, h28⟩ := IntOp.andi_eq_one.1 h0
  obtain ⟨-, h22⟩ := IntOp.andi_eq_one.1 h23
  refine ⟨fun i => ?_, ?_⟩
  · have hi := Host.reduce_andi_all _ _ _ _ ix0 h22 i
    rw [cmpf_apply, Ideal.cmpf_def] at hi
    have hlt := lt_of_cmp_olt _ _ hi
    rw [broadcastInDim_apply ![] _ _ i ix0 (fun a => a.elim0)] at hlt
    refine real_of_abs_lt_top (mu i) ?_
    rw [← ofBits_inf]
    exact hlt
  · rw [cmpf_apply, Ideal.cmpf_def, slice1, slice0] at h28
    exact ne_of_cmp_une _ _ h28

end Cert.PreFacts

end
-- ==== Proof.Bridge.lean ====
/-
  The array the region leaves is the reference's filter stage.

  Both are the filter of Spec.lean over the same weight matrices; what differs is the radial-basis table.  The
  region's table is  exp (0 − (D e · s − μ b · s)²)  with  s = √γ,  the reference's is  exp ((−γ) · (D e − μ b)²),
  with the same per-edge squared distance D e and  γ = 1 / (μ 1 − μ 0)².  When every centre is a real number and
  μ 1 ≠ μ 0 the width γ is a positive real and the two exponents agree at every extended real D e
  (LibRbfScale.lean), so the two tables are one table and the two arrays one array.
-/
import proofs.«159562_j9560597201471_2_alg».proof.Proof.KernelArray
import proofs.«159562_j9560597201471_2_alg».proof.Proof.KernelPrelude
import proofs.«159562_j9560597201471_2_alg».proof.Proof.RefEntry
import proofs.«159562_j9560597201471_2_alg».proof.Proof.LibRbfScale
import proofs.«159562_j9560597201471_2_alg».proof.Proof.PreFacts

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Prelude Cert.KernelIdeal.RegionValue

/-- The word of 1. -/
theorem one_word : Ideal.ofBits .f32 0x3F800000#32 = (1 : EReal) := by
  simp [Ideal.ofBits, Ideal.ieee, -EReal.coe_mul]; norm_num

/-- The width's root at its one index. -/
theorem root_val (mu : FVec Ideal S128 .f32) :
    rootK mu ix0 = Ideal.sqrt (Ideal.div 1 ((mu (ix1 (1 : Fin 128)) - mu (ix1 (0 : Fin 128)))
      * (mu (ix1 (1 : Fin 128)) - mu (ix1 (0 : Fin 128))))) := by
  unfold rootK Host.sqrt Host.divf
  rw [mulf_apply, subf_apply, Cert.PreFacts.slice1, Cert.PreFacts.slice0, constant_apply, one_word]
  rfl

/-- The reference's negated width at its one index. -/
theorem negwidth_val (mu : FVec Ideal S128 .f32) :
    Cert.ReferenceIdeal.Read.val_main_v24 (F := Ideal) mu ix0
      = -(Ideal.div 1 ((mu (ix1 (1 : Fin 128)) - mu (ix1 (0 : Fin 128)))
          * (mu (ix1 (1 : Fin 128)) - mu (ix1 (0 : Fin 128))))) := by
  rw [Cert.ReferenceIdeal.Read.val_main_v24_apply, Cert.ReferenceIdeal.Read.val_main_v23_apply,
    Cert.ReferenceIdeal.Read.val_main_v22_apply, Cert.ReferenceIdeal.Read.val_main_v21_apply,
    Cert.ReferenceIdeal.Read.val_main_cst_3_apply]
  unfold Cert.ReferenceIdeal.Read.val_main_v18 Cert.ReferenceIdeal.Read.val_main_v20
    Cert.ReferenceIdeal.Read.val_main_v17 Cert.ReferenceIdeal.Read.val_main_v19
  rw [Cert.PreFacts.slice1, Cert.PreFacts.slice0]
  show -(Ideal.div (Ideal.ofBits .f32 0x3F800000#32) _) = _
  rw [one_word]
  rfl

variable (m : (ℓ : Loc nD τ sig) → Buf (Elt Ideal) ℓ)

/-- The array the region leaves is the reference's filter stage of the same arguments, when the centres are real
    and the first two differ. -/
theorem region_eq_ref (c : Dev nD) (R : FVec Ideal S32768x3 .f32) (W1 : FVec Ideal S128x256 .f32)
    (W2 : FVec Ideal S256x256 .f32) (mu : FVec Ideal S128 .f32) (src dest : IVec S262144 32)
    (hR : m ((c : Thread nD τ).loc main_arg1) = R) (hW1 : m ((c : Thread nD τ).loc main_arg2) = W1)
    (hW2 : m ((c : Thread nD τ).loc main_arg3) = W2) (hmuE : m ((c : Thread nD τ).loc main_arg4) = mu)
    (hsrc : m ((c : Thread nD τ).loc main_arg5) = src) (hdest : m ((c : Thread nD τ).loc main_arg6) = dest)
    (hmu : ∀ i : S128.Idx, ∃ r : ℝ, mu i = (r : EReal))
    (hne : mu (ix1 (1 : Fin 128)) ≠ mu (ix1 (0 : Fin 128))) :
    regionOut (V m c main_v27) (V m c main_v30) (V m c main_v31) (V m c main_v32)
      = Cert.ReferenceIdeal.Read.val_main_v37 (F := Ideal) R W1 W2 mu src dest := by
  funext i
  obtain ⟨e, j, rfl⟩ : ∃ (e : Fin 262144) (j : Fin 256), i = ix2 e j := ⟨i 0, i 1, eq_ix2 i⟩
  rw [Cert.ReferenceIdeal.RefValue.v37_entry]
  unfold regionOut
  rw [v27_eq m c R mu src dest hR hmuE hsrc hdest, v30_eq m c mu hmuE, v31_eq m c W1 hW1, v32_eq m c W2 hW2]
  refine Cert.CfConv.filter_congr _ _ _ _ e e j (fun b => ?_)
  unfold rbfW Cert.ReferenceIdeal.RefValue.rbfR
  refine congrArg Ideal.exp ?_
  rw [Cert.LibColumn.shapeCast_a_a1_apply, shapeCast_a_1a_apply, mulf_apply, mulf_apply, distK_eq,
    broadcastInDim_apply ![] _ _ (ix1 e) ix0 (fun a => a.elim0),
    broadcastInDim_apply ![] _ _ (ix1 b) ix0 (fun a => a.elim0),
    root_val, negwidth_val, Ideal.ofBits_zero_f32]
  obtain ⟨μ, hμ⟩ := hmu (ix1 b)
  obtain ⟨μ1, hμ1⟩ := hmu (ix1 (1 : Fin 128))
  obtain ⟨μ0, hμ0⟩ := hmu (ix1 (0 : Fin 128))
  rw [hμ1, hμ0] at hne
  rw [hμ, hμ1, hμ0]
  exact Cert.LibRbfScale.scaled_exponent_eq μ0 μ1 μ (fun h => hne (congrArg _ h)) _

end Cert.Bridge

end
-- ==== Proof.KernelTail.lean ====
/-
  The host lines after the region.

  After the region the host gathers the node features of each edge's source, multiplies them entry by entry by
  the region's array (widened to the longer float format: the identity on the extended reals), and adds each
  edge's row into its destination node's row of a zero array.  These are the very operations the reference ends
  with, so the result is the reference's last stage with the region's array in the place of its filter stage.
-/
import proofs.«159562_j9560597201471_2_alg».proof.Proof.Gen.KernelIdeal.Frame
import proofs.«159562_j9560597201471_2_alg».proof.Proof.Gen.ReferenceIdeal.Read
import proofs.«159562_j9560597201471_2_alg».proof.Proof.KernelPrelude
import Idealize.ShloMosaic.Lib.Pipeline.Value
import Idealize.ShloMosaic.Lib.ValueIdx
import Idealize.ShloMosaic.Lib.StableHlo.Run

set_option maxRecDepth 16384

noncomputable section

namespace Cert.KernelIdeal.Tail

open Idealize.ShloMosaic Idealize.ShloMosaic.TcCoe Idealize.ShloMosaic.ValueIdx Idealize.SL.Sem
open Cert.KernelIdeal Cert.KernelIdeal.Gen Cert.KernelIdeal.Prelude

/-- Gather the sources' features, multiply by the filter M, add each edge's row into its destination's row. -/
def tailK (X : FVec Ideal S32768x256 .f32) (src dest : IVec S262144 32) (M : FVec Ideal S262144x256 .f32) :
    FVec Ideal S32768x256 .f32 :=
  Host.scatterAdd scatter_S32768x256_S262144x1_S262144x256_1_0_0_1
    (broadcastInDim S32768x256 ![] Facts₀.bcast_S_S32768x256 (constant S_ .f32 0x00000000#32))
    (broadcastInDim S262144x1 ![0] Facts₀.bcast_S262144_S262144x1_0 dest)
    (mulf (Host.gather gather_S32768x256_S262144x1_S262144x256_1_0_n_n_0_1_1256 X (wrapK src)) M)

/-- With the reference's filter stage for M this is the reference's last stage: the same operations. -/
theorem tailK_ref (x0 : FVec Ideal S32768x256 .f32) (x1 : FVec Ideal S32768x3 .f32) (x2 : FVec Ideal S128x256 .f32)
    (x3 : FVec Ideal S256x256 .f32) (x4 : FVec Ideal S128 .f32) (x5 x6 : IVec S262144 32) :
    tailK x0 x5 x6 (Cert.ReferenceIdeal.Read.val_main_v37 (F := Ideal) x1 x2 x3 x4 x5 x6)
      = Cert.ReferenceIdeal.Read.val_main_v48 (F := Ideal) x0 x1 x2 x3 x4 x5 x6 := by
  unfold tailK wrapK Cert.ReferenceIdeal.Read.val_main_v48 Cert.ReferenceIdeal.Read.val_main_v47
    Cert.ReferenceIdeal.Read.val_main_v46 Cert.ReferenceIdeal.Read.val_main_v45 Cert.ReferenceIdeal.Read.val_main_v44
    Cert.ReferenceIdeal.Read.val_main_v43 Cert.ReferenceIdeal.Read.val_main_v42 Cert.ReferenceIdeal.Read.val_main_v41
    Cert.ReferenceIdeal.Read.val_main_v40 Cert.ReferenceIdeal.Read.val_main_v39 Cert.ReferenceIdeal.Read.val_main_v38
    Cert.ReferenceIdeal.Read.val_main_c_4 Cert.ReferenceIdeal.Read.val_main_c_5 Cert.ReferenceIdeal.Read.val_main_cst_6
  rfl

variable (m : (ℓ : Loc nD τ sig) → Buf (Elt Ideal) ℓ)

set_option maxHeartbeats 4000000 in
/-- What the lines after the region leave in the result, from the array the region left. -/
theorem tail_eq (c : Dev nD) (X : FVec Ideal S32768x256 .f32) (src dest : IVec S262144 32)
    (M : FVec Ideal S262144x256 .bf16)
    (hX : m ((c : Thread nD τ).loc main_arg0) = X) (hsrc : m ((c : Thread nD τ).loc main_arg5) = src)
    (hdest : m ((c : Thread nD τ).loc main_arg6) = dest) (hM : (dats m 0 c).arrAt 4 cfg0.N = M) :
    @Eq (FVec Ideal S32768x256 .f32) (Pipeline.afterTail₀ cfgs (dats m) 0 (V0 m) [hostOps1] c main_v45)
      (tailK X src dest (extf .f32 M Facts₀.bitsLt_bf16_f32)) := by
  subst hX hsrc hdest hM
  unfold Pipeline.afterTail₀
  show StableHlo.after hostOps1 _ (Proc.devRef .tc main_v45) = _
  after_results_simp
  rw [Pipeline.withArrays_of_ne _ c (V0 m c) _ main_arg6 (by exact (by decide : ∀ w, Pipeline.arrRef spec0 w ≠ main_arg6)),
    Pipeline.withArrays_of_ne _ c (V0 m c) _ main_arg0 (by exact (by decide : ∀ w, Pipeline.arrRef spec0 w ≠ main_arg0)),
    Pipeline.withArrays_of_ne _ c (V0 m c) _ main_arg5 (by exact (by decide : ∀ w, Pipeline.arrRef spec0 w ≠ main_arg5)),
    Pipeline.withArrays_arr spec0 launch0.win.arr_inj c _ _ 4]
  rw [show V0 m c (Proc.devRef .tc main_arg6) = m ((c : Thread nD τ).loc main_arg6) from V_main_arg6 m c,
    show V0 m c (Proc.devRef .tc main_arg0) = m ((c : Thread nD τ).loc main_arg0) from V_main_arg0 m c,
    show V0 m c (Proc.devRef .tc main_arg5) = m ((c : Thread nD τ).loc main_arg5) from V_main_arg5 m c]
  rfl

end Cert.KernelIdeal.Tail

end
-- ==== Proof.lean ====
/-
  A continuous-filter convolution over a graph: the tiled kernel against the whole-array reference.

  For each edge e with endpoints src e, dest e both programs form the squared distance D e between the two
  gathered positions, a table of 128 Gaussian radial-basis values of D e about the centres μ b with width
  γ = 1 / (μ 1 − μ 0)², a filter row  M (e, ·)  from that table by two dense layers with a rectifier after each,
  the product of the filter row with the gathered features of src e, and the sum of these rows into the row of
  node dest e.  The gathers, the squared distance, the width and the final scatter-sum are the same operations in
  both programs.  Two things differ.

  * The kernel computes the filter in 64 bands of 4096 edges, with operands rounded to a shorter float format.
    On the extended reals a rounding is the identity and a matrix product is the sum over the contracted axis, so
    each band is the band of one whole-array function and the bands tile the array (KernelEntry, KernelArray).
  * The kernel folds the width into the arguments of the Gaussian: with s = √γ it evaluates
    exp (0 − (D e · s − μ b · s)²)  where the reference evaluates  exp ((−γ) · (D e − μ b)²).  For real centres with
    μ 1 ≠ μ 0 the width is a positive real, s · s = γ, and the exponents agree at every extended real D e
    (LibRbfScale, Bridge).  The precondition supplies exactly that: every centre finite and μ 1 ≠ μ 0
    (PreFacts); where μ 1 = μ 0 the width is a division by zero and the two programs part.

  The three frame claims are the generated frames of the two kernel programs and the reference's generated run
  with its result dropped; the idealization rewrote nothing, so it is preserved trivially.
-/
import proofs.«159562_j9560597201471_2_alg».proof.Defs
import proofs.«159562_j9560597201471_2_alg».proof.Proof.Gen.Kernel
import proofs.«159562_j9560597201471_2_alg».proof.Proof.Gen.Kernel.Skeleton
import proofs.«159562_j9560597201471_2_alg».proof.Proof.Gen.Kernel.Launch
import proofs.«159562_j9560597201471_2_alg».proof.Proof.Gen.Kernel.Points
import proofs.«159562_j9560597201471_2_alg».proof.Proof.Gen.Kernel.Frame
import proofs.«159562_j9560597201471_2_alg».proof.Proof.Gen.KernelIdeal
import proofs.«159562_j9560597201471_2_alg».proof.Proof.Gen.KernelIdeal.Skeleton
import proofs.«159562_j9560597201471_2_alg».proof.Proof.Gen.KernelIdeal.Launch
import proofs.«159562_j9560597201471_2_alg».proof.Proof.Gen.KernelIdeal.Points
import proofs.«159562_j9560597201471_2_alg».proof.Proof.Gen.KernelIdeal.Frame
import proofs.«159562_j9560597201471_2_alg».proof.Proof.Gen.ReferenceIdeal
import proofs.«159562_j9560597201471_2_alg».proof.Proof.Gen.Pre_finite_inputs
import proofs.«159562_j9560597201471_2_alg».proof.Proof.Gen.ReferenceIdeal.Run
import proofs.«159562_j9560597201471_2_alg».proof.Proof.Gen.ReferenceIdeal.Read
import proofs.«159562_j9560597201471_2_alg».proof.Proof.Bridge
import proofs.«159562_j9560597201471_2_alg».proof.Proof.KernelTail
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

section KernelResult

open Cert.KernelIdeal Cert.KernelIdeal.Gen

/-- Under the precondition the kernel program's result, as its last host lines leave it, is the reference's last
    stage of the same arguments: the region's array is the reference's filter stage (Bridge), and the lines after
    the region are the reference's last lines (KernelTail). -/
theorem kernel_result (m : (ℓ : Loc nD τ sig) → Buf (Elt Ideal) ℓ) (hpre : Cert.Pre_KernelIdeal m) (c : Dev nD) :
    Pipeline.afterTail₀ cfgs (dats m) 0 (V0 m) [hostOps1] c main_v45
      = Cert.ReferenceIdeal.Read.val_main_v48 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6)) := by
  obtain ⟨hmu, hne⟩ := Cert.PreFacts.centres _ _ _ _ _ _ _ _ (hpre c)
  refine (Cert.KernelIdeal.Tail.tail_eq m c _ _ _ _ rfl rfl rfl (Cert.KernelIdeal.RegionValue.final m c)).trans ?_
  refine Eq.trans ?_ (Cert.KernelIdeal.Tail.tailK_ref _ _ _ _ _ _ _)
  refine congrArg (Cert.KernelIdeal.Tail.tailK _ _ _) ?_
  exact Cert.Bridge.region_eq_ref m c _ _ _ _ _ _ rfl rfl rfl rfl rfl rfl hmu hne

end KernelResult

/-- From memories that agree on the arguments both programs end with the reference's last stage of those
    arguments in their result, and with their arguments unchanged. -/
theorem algebraic : Cert.algebraic_KernelIdeal_ReferenceIdeal := by
  intro m ρ m' ρ' hpre hagree
  refine ⟨fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun _ h c =>
      ⟨((h c).2 Cert.KernelIdeal.main_v45 (Pipeline.mem_restRefs_of Cert.KernelIdeal.main_v45 (by decide) (by decide))).trans
          (kernel_result m hpre c),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c),
        ((h c).2 Cert.KernelIdeal.main_arg4 (Pipeline.mem_restRefs_of Cert.KernelIdeal.main_arg4 (by decide) (by decide))).trans
          (Cert.KernelIdeal.Gen.W_main_arg4 m (Cert.KernelIdeal.Gen.dats m) c),
        ((h c).2 Cert.KernelIdeal.main_arg5 (Pipeline.mem_restRefs_of Cert.KernelIdeal.main_arg5 (by decide) (by decide))).trans
          (Cert.KernelIdeal.Gen.W_main_arg5 m (Cert.KernelIdeal.Gen.dats m) c),
        ((h c).2 Cert.KernelIdeal.main_arg6 (Pipeline.mem_restRefs_of Cert.KernelIdeal.main_arg6 (by decide) (by decide))).trans
          (Cert.KernelIdeal.Gen.W_main_arg6 m (Cert.KernelIdeal.Gen.dats m) c),
        ((h c).2 Cert.KernelIdeal.main_arg7 (Pipeline.mem_restRefs_of Cert.KernelIdeal.main_arg7 (by decide) (by decide))).trans
          (Cert.KernelIdeal.Gen.W_main_arg7 m (Cert.KernelIdeal.Gen.dats m) c)⟩)
      (Cert.KernelIdeal.Gen.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v48_eq, (hagree c).1, (hagree c).2.1, (hagree c).2.2.1,
      (hagree c).2.2.2.1, (hagree c).2.2.2.2.1, (hagree c).2.2.2.2.2.1, (hagree c).2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
